-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1000000 32) (main_arg2 : FVec F S1000000 .f32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S5000x128 : Shape := ⟨2, ![5000, 128]⟩
abbrev S5000x64 : Shape := ⟨2, ![5000, 64]⟩
abbrev S1100000x64 : Shape := ⟨2, ![1100000, 64]⟩
abbrev S1x64 : Shape := ⟨2, ![1, 64]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 90
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S1x1000000, .i32⟩
  | .hbm, ⟨14, _⟩ => ⟨S1000000, .i32⟩
  | .hbm, ⟨15, _⟩ => ⟨S1100000, .i32⟩
  | .hbm, ⟨16, _⟩ => ⟨S_, .f32⟩
  | .hbm, ⟨17, _⟩ => ⟨S100000, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1100000, .i32⟩
  | .hbm, ⟨33, _⟩ => ⟨S1100000, .i1⟩
  | .hbm, ⟨34, _⟩ => ⟨S_, .i32⟩
  | .hbm, ⟨35, _⟩ => ⟨S1100000, .i32⟩
  | .hbm, ⟨36, _⟩ => ⟨S1100000, .i32⟩
  | .hbm, ⟨37, _⟩ => ⟨S1100000, .i32⟩
  | .hbm, ⟨38, _⟩ => ⟨S1100000x1, .i32⟩
  | .hbm, ⟨39, _⟩ => ⟨S1100000, .f32⟩
  | .hbm, ⟨40, _⟩ => ⟨S1100000, .f32⟩
  | .hbm, ⟨41, _⟩ => ⟨S_, .i32⟩
  | .hbm, ⟨42, _⟩ => ⟨S1100000, .i32⟩
  | .hbm, ⟨43, _⟩ => ⟨S1100000, .i1⟩
  | .hbm, ⟨44, _⟩ => ⟨S_, .i32⟩
  | .hbm, ⟨45, _⟩ => ⟨S1100000, .i32⟩
  | .hbm, ⟨46, _⟩ => ⟨S1100000, .i32⟩
  | .hbm, ⟨47, _⟩ => ⟨S1100000, .i32⟩
  | .hbm, ⟨48, _⟩ => ⟨S1100000x1, .i32⟩
  | .hbm, ⟨49, _⟩ => ⟨S1100000, .f32⟩
  | .hbm, ⟨50, _⟩ => ⟨S1100000, .f32⟩
  | .hbm, ⟨51, _⟩ => ⟨S100000x64, .f32⟩
  | .hbm, ⟨52, _⟩ => ⟨S_, .i32⟩
  | .hbm, ⟨53, _⟩ => ⟨S1100000, .i32⟩
  | .hbm, ⟨54, _⟩ => ⟨S1100000, .i1⟩
  | .hbm, ⟨55, _⟩ => ⟨S_, .i32⟩
  | .hbm, ⟨56, _⟩ => ⟨S1100000, .i32⟩
  | .hbm, ⟨57, _⟩ => ⟨S1100000, .i32⟩
  | .hbm, ⟨58, _⟩ => ⟨S1100000, .i32⟩
  | .hbm, ⟨59, _⟩ => ⟨S1100000x1, .i32⟩
  | .hbm, ⟨60, _⟩ => ⟨S1100000x64, .f32⟩
  | .hbm, ⟨61, _⟩ => ⟨S1100000x1, .f32⟩
  | .hbm, ⟨62, _⟩ => ⟨S1100000x64, .f32⟩
  | .hbm, ⟨63, _⟩ => ⟨S1100000x64, .f32⟩
  | .hbm, ⟨64, _⟩ => ⟨S_, .f32⟩
  | .hbm, ⟨65, _⟩ => ⟨S100000x64, .f32⟩
  | .hbm, ⟨66, _⟩ => ⟨S1100000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1100000, .i32⟩
  | .hbm, ⟨72, _⟩ => ⟨S1100000, .i1⟩
  | .hbm, ⟨73, _⟩ => ⟨S_, .i32⟩
  | .hbm, ⟨74, _⟩ => ⟨S1100000, .i32⟩
  | .hbm, ⟨75, _⟩ => ⟨S1100000, .i32⟩
  | .hbm, ⟨76, _⟩ => ⟨S1100000, .i32⟩
  | .hbm, ⟨77, _⟩ => ⟨S1100000x1, .i32⟩
  | .hbm, ⟨78, _⟩ => ⟨S1100000x64, .f32⟩
  | .hbm, ⟨79, _⟩ => ⟨S1100000x1, .f32⟩
  | .hbm, ⟨80, _⟩ => ⟨S1100000x64, .f32⟩
  | .hbm, ⟨81, _⟩ => ⟨S1100000x64, .f32⟩
  | .hbm, ⟨82, _⟩ => ⟨S_, .f32⟩
  | .hbm, ⟨83, _⟩ => ⟨S100000x64, .f32⟩
  | .hbm, ⟨84, _⟩ => ⟨S1100000x1, .i32⟩
  | .hbm, ⟨85, _⟩ => ⟨S100000x64, .f32⟩
  | .hbm, ⟨86, _⟩ => ⟨S1x64, .f32⟩
  | .hbm, ⟨87, _⟩ => ⟨S1x1, .f32⟩
  | .hbm, ⟨88, _⟩ => ⟨S100000x1, .f32⟩
  | .hbm, ⟨89, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S1x1000000, .i32⟩
  | .hbm, ⟨14, _⟩ => ⟨S1000000, .i32⟩
  | .hbm, ⟨15, _⟩ => ⟨S1100000, .i32⟩
  | .hbm, ⟨16, _⟩ => ⟨S_, .f32⟩
  | .hbm, ⟨17, _⟩ => ⟨S100000, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1100000, .i32⟩
  | .hbm, ⟨33, _⟩ => ⟨S1100000, .i1⟩
  | .hbm, ⟨34, _⟩ => ⟨S_, .i32⟩
  | .hbm, ⟨35, _⟩ => ⟨S1100000, .i32⟩
  | .hbm, ⟨36, _⟩ => ⟨S1100000, .i32⟩
  | .hbm, ⟨37, _⟩ => ⟨S1100000, .i32⟩
  | .hbm, ⟨38, _⟩ => ⟨S1100000x1, .i32⟩
  | .hbm, ⟨39, _⟩ => ⟨S1100000, .f32⟩
  | .hbm, ⟨40, _⟩ => ⟨S1100000, .f32⟩
  | .hbm, ⟨41, _⟩ => ⟨S_, .i32⟩
  | .hbm, ⟨42, _⟩ => ⟨S1100000, .i32⟩
  | .hbm, ⟨43, _⟩ => ⟨S1100000, .i1⟩
  | .hbm, ⟨44, _⟩ => ⟨S_, .i32⟩
  | .hbm, ⟨45, _⟩ => ⟨S1100000, .i32⟩
  | .hbm, ⟨46, _⟩ => ⟨S1100000, .i32⟩
  | .hbm, ⟨47, _⟩ => ⟨S1100000, .i32⟩
  | .hbm, ⟨48, _⟩ => ⟨S1100000x1, .i32⟩
  | .hbm, ⟨49, _⟩ => ⟨S1100000, .f32⟩
  | .hbm, ⟨50, _⟩ => ⟨S1100000, .f32⟩
  | .hbm, ⟨51, _⟩ => ⟨S100000x64, .f32⟩
  | .hbm, ⟨52, _⟩ => ⟨S_, .i32⟩
  | .hbm, ⟨53, _⟩ => ⟨S1100000, .i32⟩
  | .hbm, ⟨54, _⟩ => ⟨S1100000, .i1⟩
  | .hbm, ⟨55, _⟩ => ⟨S_, .i32⟩
  | .hbm, ⟨56, _⟩ => ⟨S1100000, .i32⟩
  | .hbm, ⟨57, _⟩ => ⟨S1100000, .i32⟩
  | .hbm, ⟨58, _⟩ => ⟨S1100000, .i32⟩
  | .hbm, ⟨59, _⟩ => ⟨S1100000x1, .i32⟩
  | .hbm, ⟨60, _⟩ => ⟨S1100000x64, .f32⟩
  | .hbm, ⟨61, _⟩ => ⟨S1100000x1, .f32⟩
  | .hbm, ⟨62, _⟩ => ⟨S1100000x64, .f32⟩
  | .hbm, ⟨63, _⟩ => ⟨S1100000x64, .f32⟩
  | .hbm, ⟨64, _⟩ => ⟨S_, .f32⟩
  | .hbm, ⟨65, _⟩ => ⟨S100000x64, .f32⟩
  | .hbm, ⟨66, _⟩ => ⟨S1100000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1100000, .i32⟩
  | .hbm, ⟨77, _⟩ => ⟨S1100000, .i1⟩
  | .hbm, ⟨78, _⟩ => ⟨S_, .i32⟩
  | .hbm, ⟨79, _⟩ => ⟨S1100000, .i32⟩
  | .hbm, ⟨80, _⟩ => ⟨S1100000, .i32⟩
  | .hbm, ⟨81, _⟩ => ⟨S1100000, .i32⟩
  | .hbm, ⟨82, _⟩ => ⟨S1100000x1, .i32⟩
  | .hbm, ⟨83, _⟩ => ⟨S1100000x64, .f32⟩
  | .hbm, ⟨84, _⟩ => ⟨S1100000x1, .f32⟩
  | .hbm, ⟨85, _⟩ => ⟨S1100000x64, .f32⟩
  | .hbm, ⟨86, _⟩ => ⟨S1100000x64, .f32⟩
  | .hbm, ⟨87, _⟩ => ⟨S_, .f32⟩
  | .hbm, ⟨88, _⟩ => ⟨S100000x64, .f32⟩
  | .hbm, ⟨89, _⟩ => ⟨S1100000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | .hbm, ⟨101, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.RunValue.lean ====
/-
  The idealized kernel program's run with its result named. The program is nine segments: three stretches of host
  operations, the first pallas_call, a stretch, the second pallas_call, a stretch, the third pallas_call, and the
  final reshape. Each segment takes the TensorCore's buffers from one boundary's contents to the next; at the end
  every buffer that outlives the program holds the last boundary's contents. So the result buffer ends at the
  last boundary's contents of it, and each argument array ends as launched.
-/
import proofs.«153778_j47725676593414_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last
    boundary's contents and every argument array as launched. -/
theorem run_result : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.Stretches.lean ====
/-
  The host operations between the pallas_calls, one stretch at a time, from any contents of the buffers. Both
  programs spell this bookkeeping with the same operations: the edge list with a self-loop per node appended, the
  degree of every node as a scatter-add of the edge weights, its inverse square root where the degree is positive
  and zero elsewhere, the edge's normalisation as the product of the two endpoint factors and the weight; then,
  around each matrix product, the gather of the source rows, their scaling by the normalisation, and the scatter-add
  into the destination rows. So once a stretch's inputs hold the reference's stages, its outputs hold the reference's
  next stages, and every buffer a stretch does not write keeps its contents.
-/
import proofs.«153778_j47725676593414_1_alg».proof.Proof.Gen.KernelIdeal.Launch
import proofs.«153778_j47725676593414_1_alg».proof.Proof.Gen.ReferenceIdeal.Read
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.Read

variable (V : Valuation τ sig (Elt Ideal))
variable (x0 : (⟨Cert.ReferenceIdeal.S100000x128, .f32⟩ : BufTy).Contents (Elt Ideal)) (x1 : (⟨Cert.ReferenceIdeal.S2x1000000, .i32⟩ : BufTy).Contents (Elt Ideal))
  (x2 : (⟨Cert.ReferenceIdeal.S1000000, .f32⟩ : BufTy).Contents (Elt Ideal)) (x3 : (⟨Cert.ReferenceIdeal.S128x64, .f32⟩ : BufTy).Contents (Elt Ideal))
  (x4 : (⟨Cert.ReferenceIdeal.S64, .f32⟩ : BufTy).Contents (Elt Ideal)) (x5 : (⟨Cert.ReferenceIdeal.S64x64, .f32⟩ : BufTy).Contents (Elt Ideal))
  (x6 : (⟨Cert.ReferenceIdeal.S64, .f32⟩ : BufTy).Contents (Elt Ideal)) (x7 : (⟨Cert.ReferenceIdeal.S64x1, .f32⟩ : BufTy).Contents (Elt Ideal))
  (x8 : (⟨Cert.ReferenceIdeal.S1, .f32⟩ : BufTy).Contents (Elt Ideal))

/-! ## What each stretch writes -/

/-- The buffers of the edge bookkeeping up to the degree's inverse square root. -/
abbrev written0 : List (Ref sig .tc) :=
  [main_v0, main_v1, main_v2, main_v3, main_v4, main_v5, main_v6, main_cst, main_v7, main_v8, main_cst_0, main_v9, main_v10,
   main_v11, main_cst_1, main_v12, main_v13, main_v14, main_cst_2]
theorem writes0 : (hostOps0 : List (HloOp τ sig (Elt Ideal))).Forall fun op =>
    op.writes ⊆ (written0.map (Proc.devRef (τ := τ) .tc)).toFinset := by
  simp only [List.Forall]
  repeat' apply And.intro
  all_goals (simp only [nullary_writes, unary_writes, binary_writes, ternary_writes, quaternary_writes, reshape_writes,
    Finset.singleton_subset_iff, List.mem_toFinset]; exact List.mem_map_of_mem (by decide))

/-- The buffers of the "zero where the degree is not positive" selection. -/
abbrev written0_1 : List (Ref sig .tc) := [main_call0_v0, main_call0_v1, main_v15]
theorem writes0_1 : (hostOps0_1 : List (HloOp τ sig (Elt Ideal))).Forall fun op =>
    op.writes ⊆ (written0_1.map (Proc.devRef (τ := τ) .tc)).toFinset := by
  simp only [List.Forall]
  repeat' apply And.intro
  all_goals (simp only [nullary_writes, unary_writes, binary_writes, ternary_writes, quaternary_writes, reshape_writes,
    Finset.singleton_subset_iff, List.mem_toFinset]; exact List.mem_map_of_mem (by decide))

/-- The buffers of the per-edge normalisation. -/
abbrev written0_2 : List (Ref sig .tc) :=
  [main_c, main_v16, main_v17, main_c_3, main_v18, main_v19, main_v20, main_v21, main_v22, main_v23, main_c_4, main_v24,
   main_v25, main_c_5, main_v26, main_v27, main_v28, main_v29, main_v30, main_v31]
theorem writes0_2 : (hostOps0_2 : List (HloOp τ sig (Elt Ideal))).Forall fun op =>
    op.writes ⊆ (written0_2.map (Proc.devRef (τ := τ) .tc)).toFinset := by
  simp only [List.Forall]
  repeat' apply And.intro
  all_goals (simp only [nullary_writes, unary_writes, binary_writes, ternary_writes, quaternary_writes, reshape_writes,
    Finset.singleton_subset_iff, List.mem_toFinset]; exact List.mem_map_of_mem (by decide))

/-- The buffers of the first propagation and the first bias row. -/
abbrev written1 : List (Ref sig .tc) :=
  [main_c_6, main_v33, main_v34, main_c_7, main_v35, main_v36, main_v37, main_v38, main_v39, main_v40, main_v41, main_v42,
   main_cst_8, main_v43, main_v44, main_v45, main_v46]
theorem writes1 : (hostOps1 : List (HloOp τ sig (Elt Ideal))).Forall fun op =>
    op.writes ⊆ (written1.map (Proc.devRef (τ := τ) .tc)).toFinset := by
  simp only [List.Forall]
  repeat' apply And.intro
  all_goals (simp only [nullary_writes, unary_writes, binary_writes, ternary_writes, quaternary_writes, reshape_writes,
    Finset.singleton_subset_iff, List.mem_toFinset]; exact List.mem_map_of_mem (by decide))

/-- The buffers of the second propagation, the second bias row and the output bias entry. -/
abbrev written2 : List (Ref sig .tc) :=
  [main_c_9, main_v48, main_v49, main_c_10, main_v50, main_v51, main_v52, main_v53, main_v54, main_v55, main_v56, main_v57,
   main_cst_11, main_v58, main_v59, main_v60, main_v61, main_v62]
theorem writes2 : (hostOps2 : List (HloOp τ sig (Elt Ideal))).Forall fun op =>
    op.writes ⊆ (written2.map (Proc.devRef (τ := τ) .tc)).toFinset := by
  simp only [List.Forall]
  repeat' apply And.intro
  all_goals (simp only [nullary_writes, unary_writes, binary_writes, ternary_writes, quaternary_writes, reshape_writes,
    Finset.singleton_subset_iff, List.mem_toFinset]; exact List.mem_map_of_mem (by decide))

/-- A buffer a stretch does not write keeps its contents. -/
theorem kept0 {r : Ref sig .tc} (h : r ∉ written0) : after hostOps0 V (Proc.devRef .tc r) = V (Proc.devRef .tc r) :=
  after_of_writes_sub hostOps0 V writes0 h
theorem kept0_1 {r : Ref sig .tc} (h : r ∉ written0_1) : after hostOps0_1 V (Proc.devRef .tc r) = V (Proc.devRef .tc r) :=
  after_of_writes_sub hostOps0_1 V writes0_1 h
theorem kept0_2 {r : Ref sig .tc} (h : r ∉ written0_2) : after hostOps0_2 V (Proc.devRef .tc r) = V (Proc.devRef .tc r) :=
  after_of_writes_sub hostOps0_2 V writes0_2 h
theorem kept1 {r : Ref sig .tc} (h : r ∉ written1) : after hostOps1 V (Proc.devRef .tc r) = V (Proc.devRef .tc r) :=
  after_of_writes_sub hostOps1 V writes1 h
theorem kept2 {r : Ref sig .tc} (h : r ∉ written2) : after hostOps2 V (Proc.devRef .tc r) = V (Proc.devRef .tc r) :=
  after_of_writes_sub hostOps2 V writes2 h

/-! ## The edge bookkeeping from the edge list and the edge weights -/

/-- Sources, with a self-loop per node appended. -/
theorem sources (h1 : V (Proc.devRef .tc main_arg1) = x1) :
    after hostOps0 V (Proc.devRef .tc main_v3) = val_main_v3 (F := Ideal) x1 := by
  subst h1; after_results_simp; rfl
/-- Destinations, with a self-loop per node appended. -/
theorem destinations (h1 : V (Proc.devRef .tc main_arg1) = x1) :
    after hostOps0 V (Proc.devRef .tc main_v6) = val_main_v6 (F := Ideal) x1 := by
  subst h1; after_results_simp; rfl
/-- Edge weights, with weight one per self-loop appended. -/
theorem weights (h2 : V (Proc.devRef .tc main_arg2) = x2) :
    after hostOps0 V (Proc.devRef .tc main_v8) = val_main_v8 (F := Ideal) x2 := by
  subst h2; after_results_simp; rfl
/-- Where the degree is positive. -/
theorem degree_positive (h1 : V (Proc.devRef .tc main_arg1) = x1) (h2 : V (Proc.devRef .tc main_arg2) = x2) :
    after hostOps0 V (Proc.devRef .tc main_v13) = val_main_v13 (F := Ideal) x1 x2 := by
  subst h1 h2; after_results_simp; rfl
/-- The degree's inverse square root. -/
theorem degree_rsqrt (h1 : V (Proc.devRef .tc main_arg1) = x1) (h2 : V (Proc.devRef .tc main_arg2) = x2) :
    after hostOps0 V (Proc.devRef .tc main_v14) = val_main_v14 (F := Ideal) x1 x2 := by
  subst h1 h2; after_results_simp; rfl
/-- The zero the selection falls back to. -/
theorem fallback_zero : after hostOps0 V (Proc.devRef .tc main_cst_2) = val_main_cst_2 (F := Ideal) := by
  after_results_simp; rfl

/-- The inverse square root of the degree where it is positive, zero elsewhere. -/
theorem degree_factor (h13 : V (Proc.devRef .tc main_v13) = val_main_v13 (F := Ideal) x1 x2)
    (h14 : V (Proc.devRef .tc main_v14) = val_main_v14 (F := Ideal) x1 x2)
    (hz : V (Proc.devRef .tc main_cst_2) = val_main_cst_2 (F := Ideal)) :
    after hostOps0_1 V (Proc.devRef .tc main_v15) = val_main_v15 (F := Ideal) x1 x2 := by
  after_results
  simp only [cast_eq]
  rw [h13, h14, hz]
  unfold val_main_v15 val_main_call0_v1 val_main_call0_v0
  rfl

/-- The per-edge normalisation: source factor times weight times destination factor. -/
theorem normalisation (h3 : V (Proc.devRef .tc main_v3) = val_main_v3 (F := Ideal) x1)
    (h6 : V (Proc.devRef .tc main_v6) = val_main_v6 (F := Ideal) x1)
    (h8 : V (Proc.devRef .tc main_v8) = val_main_v8 (F := Ideal) x2)
    (h15 : V (Proc.devRef .tc main_v15) = val_main_v15 (F := Ideal) x1 x2) :
    after hostOps0_2 V (Proc.devRef .tc main_v31) = val_main_v31 (F := Ideal) x1 x2 := by
  after_results_simp
  rw [h3, h6, h8, h15]
  rfl

/-! ## The propagations around the matrix products -/

/-- The first propagation, of the first layer's array. -/
theorem propagation1 (h3 : V (Proc.devRef .tc main_v3) = val_main_v3 (F := Ideal) x1)
    (h6 : V (Proc.devRef .tc main_v6) = val_main_v6 (F := Ideal) x1)
    (h31 : V (Proc.devRef .tc main_v31) = val_main_v31 (F := Ideal) x1 x2)
    (h32 : V (Proc.devRef .tc main_v32) = val_main_v32 (F := Ideal) x0 x3) :
    after hostOps1 V (Proc.devRef .tc main_v45) = val_main_v45 (F := Ideal) x0 x1 x2 x3 := by
  after_results_simp
  rw [h3, h6, h31, h32]
  rfl
/-- The first bias as one row. -/
theorem bias_row1 (h4 : V (Proc.devRef .tc main_arg4) = x4) :
    after hostOps1 V (Proc.devRef .tc main_v46) = shapeCast S1x64 x4 shapeCasts_S64_S1x64 := by
  subst h4; after_results_simp; rfl

/-- The second propagation, of the second layer's array. -/
theorem propagation2 (h3 : V (Proc.devRef .tc main_v3) = val_main_v3 (F := Ideal) x1)
    (h6 : V (Proc.devRef .tc main_v6) = val_main_v6 (F := Ideal) x1)
    (h31 : V (Proc.devRef .tc main_v31) = val_main_v31 (F := Ideal) x1 x2)
    (h47 : V (Proc.devRef .tc main_v47) = val_main_v50 (F := Ideal) x0 x1 x2 x3 x4 x5) :
    after hostOps2 V (Proc.devRef .tc main_v60) = val_main_v63 (F := Ideal) x0 x1 x2 x3 x4 x5 := by
  after_results_simp
  rw [h3, h6, h31, h47]
  rfl
/-- The second bias as one row. -/
theorem bias_row2 (h6 : V (Proc.devRef .tc main_arg6) = x6) :
    after hostOps2 V (Proc.devRef .tc main_v61) = shapeCast S1x64 x6 shapeCasts_S64_S1x64 := by
  subst h6; after_results_simp; rfl
/-- The output bias as one entry. -/
theorem bias_entry (h8 : V (Proc.devRef .tc main_arg8) = x8) :
    after hostOps2 V (Proc.devRef .tc main_v62) = shapeCast S1x1 x8 shapeCasts_S1_S1x1 := by
  subst h8; after_results_simp; rfl

/-- The last stretch drops the unit axis of the third layer's array. -/
theorem flattened : after hostOps3 V (Proc.devRef .tc main_v64)
    = shapeCast S100000 (V (Proc.devRef .tc main_v63)) shapeCasts_S100000x1_S100000 := by
  after_results_simp; rfl

end Cert.KernelIdeal.Stretches

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.Payloads.lean ====
/-
  What each of the three kernel bodies stores, read at one entry (r, q) of its block, at the ideal values.
  The first body stores a block of node features times the first weight matrix. The second and third add a bias
  row to every row of their input block, clamp below at zero, and multiply by their weight matrix; the third then
  adds the one-entry output bias. A narrowing of the float format is the identity at the ideal values, a
  reshape to the same shape is the identity, and a matrix product into the zero accumulator is the sum over
  the contracted coordinate of the products of the entries.
-/
import proofs.«153778_j47725676593414_1_alg».proof.Proof.Gen.KernelIdeal.Skeleton
import proofs.«153778_j47725676593414_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Payloads

open Cert.KernelIdeal Cert.KernelIdeal.Gen Idealize.ShloMosaic Idealize.ShloMosaic.ValueIdx

/-- The zero word of the clamp, as the extended real both programs compare against. -/
abbrev zeroWord : EReal := Ideal.ofBits .f32 0x00000000#32

/-- First body: entry (r, q) of the stored block is the r-th row of the feature block against the q-th column
    of the weights. -/
theorem linear_apply (x : Vec Ideal S5000x128 .f32) (w : Vec Ideal S128x64 .f32) (r : Fin 5000) (q : Fin 64) :
    k0_pay1 x w (ix2 r q) = ∑ k : Fin 128, x (ix2 r k) * w (ix2 k q) := by
  unfold k0_pay1
  exact PlainMatmul.plainMatmul_apply none (truncf .bf16 x bitsLt_bf16_f32) (truncf .bf16 w bitsLt_bf16_f32) r q

/-- The clamped, biased input block of the second and third bodies at (r, k). -/
theorem relu_bias_apply (b : Vec Ideal S1x64 .f32) (p : Vec Ideal S5000x64 .f32) (r : Fin 5000) (k : Fin 64) :
    (maximumf (addf (shapeCast S5000x64 p shapeCasts_S5000x64_S5000x64)
        (broadcastTo S5000x64 (shapeCast S1x64 (shapeCast S1x64 b shapeCasts_S1x64_S1x64) shapeCasts_S1x64_S1x64) broadcasts_S1x64_S5000x64))
      (broadcast S5000x64 (Scalar.ofBits (F := Ideal) .f32 0x00000000#32)) : FVec Ideal S5000x64 .f32) (ix2 r k)
    = max (p (ix2 r k) + b (ix2 (0 : Fin 1) k)) zeroWord := by
  rw [maximumf_apply, addf_apply, shapeCast_self, shapeCast_self, shapeCast_self,
    broadcastTo_1b_ab_apply b broadcasts_S1x64_S5000x64 r k]
  rfl

/-- Second body: entry (r, q) is the clamped biased row r against column q of the hidden weights. -/
theorem relu_linear_apply (b : Vec Ideal S1x64 .f32) (p : Vec Ideal S5000x64 .f32) (w : Vec Ideal S64x64 .f32)
    (r : Fin 5000) (q : Fin 64) :
    k1_pay1 b p w (ix2 r q) = ∑ k : Fin 64, max (p (ix2 r k) + b (ix2 (0 : Fin 1) k)) zeroWord * w (ix2 k q) := by
  unfold k1_pay1
  refine (PlainMatmul.plainMatmul_apply none _ (truncf .bf16 w bitsLt_bf16_f32) r q).trans ?_
  refine Finset.sum_congr rfl fun k _ => ?_
  rw [truncf_apply, truncf_apply, relu_bias_apply]

/-- Third body: entry (r, 0) is the clamped biased row r against the head's one column, plus the output bias. -/
theorem relu_head_apply (b : Vec Ideal S1x64 .f32) (p : Vec Ideal S5000x64 .f32) (w : Vec Ideal S64x1 .f32)
    (bl : Vec Ideal S1x1 .f32) (r : Fin 5000) (q : Fin 1) :
    k2_pay1 b p w bl (ix2 r q)
      = (∑ k : Fin 64, max (p (ix2 r k) + b (ix2 (0 : Fin 1) k)) zeroWord * w (ix2 k q)) + bl (ix2 (0 : Fin 1) q) := by
  unfold k2_pay1
  rw [addf_apply]
  refine congrArg₂ (· + ·) ?_ ?_
  · refine (PlainMatmul.plainMatmul_apply none _ (truncf .bf16 w bitsLt_bf16_f32) r q).trans ?_
    refine Finset.sum_congr rfl fun k _ => ?_
    rw [truncf_apply, truncf_apply, relu_bias_apply]
  · rw [shapeCast_self, shapeCast_self, broadcastTo_1b_ab_apply bl broadcasts_S1x1_S5000x1 r q]

end Cert.KernelIdeal.Payloads

end
-- ==== Proof.LinearLayer.lean ====
/-
  The first pallas_call's output array, whole. The grid has 20 points; point t reads rows 5000·t … 5000·t + 4999 of
  the node features, the whole first weight matrix, and writes the same rows of the output. Every entry of the
  output therefore ends as its row of the features against its column of the weights, whichever block holds it,
  and the 20 blocks cover all 100000 rows.
-/
import proofs.«153778_j47725676593414_1_alg».proof.Proof.Gen.KernelIdeal.Frame
import proofs.«153778_j47725676593414_1_alg».proof.Proof.Payloads
import Idealize.ShloMosaic.Lib.Pipeline.Value
import Idealize.ShloMosaic.Lib.ValueIdx

set_option maxRecDepth 16384

noncomputable section

open scoped BigOperators

namespace Cert.KernelIdeal.LinearLayer

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Both offsets of a whole-block rectangle are zero. -/
theorem zeroOff : (![0, 0] : Fin 2 → Nat) = fun _ => 0 := funext fun a => by fin_cases a <;> rfl

/-- Features times weights: entry (n, q) is the sum over the 128 input channels. -/
def linear (X : S100000x128.Idx → EReal) (Wt : S128x64.Idx → EReal) : S100000x64.Idx → EReal :=
  fun i => ∑ k : Fin 128, X (ix2 (i 0 : Fin 100000) k) * Wt (ix2 k (i 1 : Fin 64))

/-- One block: if the feature block holds the rows of X that the output block's rows name, and the weight block
    is all of Wt, the stored block is the corresponding rows of `linear X Wt`. -/
theorem linear_block (X : S100000x128.Idx → EReal) (Wt : S128x64.Idx → EReal)
    (x : Vec Ideal S5000x128 .f32) (w : Vec Ideal S128x64 .f32)
    (e0 : S5000x128.Idx → S100000x128.Idx) (e2 : S5000x64.Idx → S100000x64.Idx)
    (hx : ∀ y, x y = X (e0 y)) (hw : ∀ y, w y = Wt y)
    (hrow : ∀ (r : Fin 5000) (q : Fin 64) (k : Fin 128), e0 (ix2 r k) = ix2 (e2 (ix2 r q) 0 : Fin 100000) k)
    (hcol : ∀ (r : Fin 5000) (q : Fin 64), (e2 (ix2 r q) 1 : Fin 64) = q)
    (y : S5000x64.Idx) : k0_pay1 x w y = linear X Wt (e2 y) := by
  obtain ⟨r, q, rfl⟩ : ∃ (r : Fin 5000) (q : Fin 64), y = ix2 r q := ⟨y 0, y 1, eq_ix2 y⟩
  rw [linear_apply]
  unfold linear
  refine Finset.sum_congr rfl fun k _ => ?_
  rw [hx, hw, hrow r q k, hcol r q]
  rfl

/-- The printed index maps over the 20 grid points: the feature and output blocks move down with the point, the
    weight block stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Each of the 20 row blocks is some point's. -/
theorem index_onto : ∀ q : Fin 20, ∃ t : Fin cfg0.N, win0_2.index t = ![q.val, 0] :=
  (by decide +kernel : ∀ q : Fin 20, ∃ t : Fin grid0.N, win0_2.index t = ![q.val, 0])

/-- What point t writes back is block t of `linear` of the two arrays as the region finds them. -/
theorem flushed_linear (c : Dev nD) (t : Fin cfg0.N) :
    (dat0 V c).flushed 2 t = ((cfg0.win 2).blk t).view.read (Elt Ideal) (linear (V c main_arg0) (V c main_arg3)) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S128x64) zeroOff]
  obtain ⟨a0, a1, a2, a3, a4, a5⟩ := index_maps t
  funext j
  refine linear_block (V c main_arg0) (V c main_arg3) (iblk0 V c 0 t) (iblk0 V c 1 t)
    ((cfg0.win 0).blk t).view.emb ((cfg0.win 2).blk t).view.emb (fun _ => rfl) (fun y => ?_) (fun r q k => ?_) (fun r q => ?_) j
  · show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · refine funext fun a => Fin.ext ?_
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  · refine Fin.ext ?_
    show win0_2.index t (1 : Fin 2) * 64 + 1 * q.val = q.val; omega

/-- An entry of the output is in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row n is in the block of point n / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: features times weights, whatever else the entry contents were. -/
theorem linear_array (c : Dev nD) :
    (dat0 V c).arrAt 2 cfg0.N = linear (V c main_arg0) (V c main_arg3) :=
  (dat0 V c).arrAt_eq_of_cover 2 (linear (V c main_arg0) (V c main_arg3)) (fun t _ => flushed_linear V c t) covered

end Cert.KernelIdeal.LinearLayer

end
-- ==== Proof.HiddenLayer.lean ====
/-
  The second pallas_call's output array, whole. Point t of its 20 reads rows 5000·t … 5000·t + 4999 of the propagated
  features, the one bias row, the whole hidden weight matrix, and writes the same rows of the output: each row with
  the bias added, clamped below at zero, against the weights. The 20 blocks cover all 100000 rows.
-/
import proofs.«153778_j47725676593414_1_alg».proof.Proof.Gen.KernelIdeal.Frame
import proofs.«153778_j47725676593414_1_alg».proof.Proof.Payloads
import proofs.«153778_j47725676593414_1_alg».proof.Proof.LinearLayer
import Idealize.ShloMosaic.Lib.Pipeline.Value
import Idealize.ShloMosaic.Lib.ValueIdx

set_option maxRecDepth 16384

noncomputable section

open scoped BigOperators

namespace Cert.KernelIdeal.HiddenLayer

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open Cert.KernelIdeal.LinearLayer (zeroOff)

/-- Bias, clamp, weights: entry (n, q) is the sum over the 64 hidden channels. -/
def reluLinear (Pm : S100000x64.Idx → EReal) (B : S1x64.Idx → EReal) (Wt : S64x64.Idx → EReal) : S100000x64.Idx → EReal :=
  fun i => ∑ k : Fin 64, max (Pm (ix2 (i 0 : Fin 100000) k) + B (ix2 (0 : Fin 1) k)) zeroWord * Wt (ix2 k (i 1 : Fin 64))

/-- One block: if the input block holds the rows of Pm that the output block's rows name, and the bias and weight
    blocks are all of B and Wt, the stored block is the corresponding rows of `reluLinear Pm B Wt`. -/
theorem relu_linear_block (Pm : S100000x64.Idx → EReal) (B : S1x64.Idx → EReal) (Wt : S64x64.Idx → EReal)
    (b : Vec Ideal S1x64 .f32) (p : Vec Ideal S5000x64 .f32) (w : Vec Ideal S64x64 .f32)
    (e0 : S5000x64.Idx → S100000x64.Idx) (e3 : S5000x64.Idx → S100000x64.Idx)
    (hp : ∀ y, p y = Pm (e0 y)) (hb : ∀ y, b y = B y) (hw : ∀ y, w y = Wt y)
    (hrow : ∀ (r : Fin 5000) (q : Fin 64) (k : Fin 64), e0 (ix2 r k) = ix2 (e3 (ix2 r q) 0 : Fin 100000) k)
    (hcol : ∀ (r : Fin 5000) (q : Fin 64), (e3 (ix2 r q) 1 : Fin 64) = q)
    (y : S5000x64.Idx) : k1_pay1 b p w y = reluLinear Pm B Wt (e3 y) := by
  obtain ⟨r, q, rfl⟩ : ∃ (r : Fin 5000) (q : Fin 64), y = ix2 r q := ⟨y 0, y 1, eq_ix2 y⟩
  rw [relu_linear_apply]
  unfold reluLinear
  refine Finset.sum_congr rfl fun k _ => ?_
  rw [hp, hb, hw, hrow r q k, hcol r q]
  rfl

/-- The printed index maps over the 20 grid points: the input and output blocks move down with the point, the bias
    and weight blocks stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Each of the 20 row blocks is some point's. -/
theorem index_onto : ∀ q : Fin 20, ∃ t : Fin cfg1.N, win1_3.index t = ![q.val, 0] :=
  (by decide +kernel : ∀ q : Fin 20, ∃ t : Fin grid1.N, win1_3.index t = ![q.val, 0])

/-- What point t writes back is block t of `reluLinear` of the three arrays as the region finds them. -/
theorem flushed_relu_linear (c : Dev nD) (t : Fin cfg1.N) :
    (dat1 V c).flushed 3 t
      = ((cfg1.win 3).blk t).view.read (Elt Ideal) (reluLinear (V c main_v45) (V c main_v46) (V c main_arg5)) := by
  show (cfg1.win 3).cut (grid1.coords t) ((dat1 V c).after 3 t) = _
  rw [after1_3]
  unfold out1_3
  rw [View.canon_unit_zero zeroOff]
  simp only [View.ld_unit_zero (S := S5000x64) zeroOff, View.ld_unit_zero (S := S1x64) zeroOff, View.ld_unit_zero (S := S64x64) zeroOff]
  obtain ⟨a0, a1, a2, a3, a4, a5, a6, a7⟩ := index_maps t
  funext j
  refine relu_linear_block (V c main_v45) (V c main_v46) (V c main_arg5) (iblk1 V c 1 t) (iblk1 V c 0 t) (iblk1 V c 2 t)
    ((cfg1.win 0).blk t).view.emb ((cfg1.win 3).blk t).view.emb (fun _ => rfl) (fun y => ?_) (fun y => ?_) (fun r q k => ?_) (fun r q => ?_) j
  · show V c main_v46 (((cfg1.win 1).blk t).view.emb y) = V c main_v46 y
    refine congrArg (V c main_v46) (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  · show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · refine funext fun a => Fin.ext ?_
    match a with
    | ⟨0, _⟩ => show win1_0.index t (0 : Fin 2) * 5000 + 1 * r.val = win1_3.index t (0 : Fin 2) * 5000 + 1 * r.val; omega
    | ⟨1, _⟩ => show win1_0.index t (1 : Fin 2) * 64 + 1 * k.val = k.val; omega
  · refine Fin.ext ?_
    show win1_3.index t (1 : Fin 2) * 64 + 1 * q.val = q.val; omega

/-- An entry of the output is in point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Row n is in the block of point n / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region. -/
theorem relu_linear_array (c : Dev nD) :
    (dat1 V c).arrAt 3 cfg1.N = reluLinear (V c main_v45) (V c main_v46) (V c main_arg5) :=
  (dat1 V c).arrAt_eq_of_cover 3 (reluLinear (V c main_v45) (V c main_v46) (V c main_arg5)) (fun t _ => flushed_relu_linear V c t) covered

end Cert.KernelIdeal.HiddenLayer

end
-- ==== Proof.HeadLayer.lean ====
/-
  The third pallas_call's output array, whole. Point t of its 20 reads rows 5000·t … 5000·t + 4999 of the twice
  propagated features, the one bias row, the head's one weight column and its one-entry output bias, and writes the
  same rows of the one-column output: each row with the bias added, clamped below at zero, against the weight
  column, plus the output bias. The 20 blocks cover all 100000 rows.
-/
import proofs.«153778_j47725676593414_1_alg».proof.Proof.Gen.KernelIdeal.Frame
import proofs.«153778_j47725676593414_1_alg».proof.Proof.Payloads
import proofs.«153778_j47725676593414_1_alg».proof.Proof.LinearLayer
import Idealize.ShloMosaic.Lib.Pipeline.Value
import Idealize.ShloMosaic.Lib.ValueIdx

set_option maxRecDepth 16384

noncomputable section

open scoped BigOperators

namespace Cert.KernelIdeal.HeadLayer

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open Cert.KernelIdeal.LinearLayer (zeroOff)

/-- Bias, clamp, the head's column, output bias: entry (n, 0). -/
def reluHead (Pm : S100000x64.Idx → EReal) (B : S1x64.Idx → EReal) (Wt : S64x1.Idx → EReal) (Bl : S1x1.Idx → EReal) :
    S100000x1.Idx → EReal :=
  fun i => (∑ k : Fin 64, max (Pm (ix2 (i 0 : Fin 100000) k) + B (ix2 (0 : Fin 1) k)) zeroWord * Wt (ix2 k (i 1 : Fin 1)))
    + Bl (ix2 (0 : Fin 1) (i 1 : Fin 1))

/-- One block: if the input block holds the rows of Pm that the output block's rows name, and the other three blocks
    are all of B, Wt and Bl, the stored block is the corresponding rows of `reluHead Pm B Wt Bl`. -/
theorem relu_head_block (Pm : S100000x64.Idx → EReal) (B : S1x64.Idx → EReal) (Wt : S64x1.Idx → EReal) (Bl : S1x1.Idx → EReal)
    (b : Vec Ideal S1x64 .f32) (p : Vec Ideal S5000x64 .f32) (w : Vec Ideal S64x1 .f32) (bl : Vec Ideal S1x1 .f32)
    (e0 : S5000x64.Idx → S100000x64.Idx) (e4 : S5000x1.Idx → S100000x1.Idx)
    (hp : ∀ y, p y = Pm (e0 y)) (hb : ∀ y, b y = B y) (hw : ∀ y, w y = Wt y) (hbl : ∀ y, bl y = Bl y)
    (hrow : ∀ (r : Fin 5000) (q : Fin 1) (k : Fin 64), e0 (ix2 r k) = ix2 (e4 (ix2 r q) 0 : Fin 100000) k)
    (hcol : ∀ (r : Fin 5000) (q : Fin 1), (e4 (ix2 r q) 1 : Fin 1) = q)
    (y : S5000x1.Idx) : k2_pay1 b p w bl y = reluHead Pm B Wt Bl (e4 y) := by
  obtain ⟨r, q, rfl⟩ : ∃ (r : Fin 5000) (q : Fin 1), y = ix2 r q := ⟨y 0, y 1, eq_ix2 y⟩
  rw [relu_head_apply]
  unfold reluHead
  rw [hbl, hcol r q]
  refine congrArg (· + Bl (ix2 (0 : Fin 1) q)) ?_
  refine Finset.sum_congr rfl fun k _ => ?_
  rw [hp, hb, hw, hrow r q k]
  rfl

/-- The printed index maps over the 20 grid points: the input and output blocks move down with the point, the other
    three stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Each of the 20 row blocks is some point's. -/
theorem index_onto : ∀ q : Fin 20, ∃ t : Fin cfg2.N, win2_4.index t = ![q.val, 0] :=
  (by decide +kernel : ∀ q : Fin 20, ∃ t : Fin grid2.N, win2_4.index t = ![q.val, 0])

/-- What point t writes back is block t of `reluHead` of the four arrays as the region finds them. -/
theorem flushed_relu_head (c : Dev nD) (t : Fin cfg2.N) :
    (dat2 V c).flushed 4 t
      = ((cfg2.win 4).blk t).view.read (Elt Ideal) (reluHead (V c main_v60) (V c main_v61) (V c main_arg7) (V c main_v62)) := by
  show (cfg2.win 4).cut (grid2.coords t) ((dat2 V c).after 4 t) = _
  rw [after2_4]
  unfold out2_4
  rw [View.canon_unit_zero zeroOff]
  simp only [View.ld_unit_zero (S := S5000x64) zeroOff, View.ld_unit_zero (S := S1x64) zeroOff, View.ld_unit_zero (S := S64x1) zeroOff,
    View.ld_unit_zero (S := S1x1) zeroOff]
  obtain ⟨a0, a1, a2, a3, a4, a5, a6, a7, a8, a9⟩ := index_maps t
  funext j
  refine relu_head_block (V c main_v60) (V c main_v61) (V c main_arg7) (V c main_v62)
    (iblk2 V c 1 t) (iblk2 V c 0 t) (iblk2 V c 2 t) (iblk2 V c 3 t)
    ((cfg2.win 0).blk t).view.emb ((cfg2.win 4).blk t).view.emb (fun _ => rfl) (fun y => ?_) (fun y => ?_) (fun y => ?_)
    (fun r q k => ?_) (fun r q => ?_) j
  · show V c main_v61 (((cfg2.win 1).blk t).view.emb y) = V c main_v61 y
    refine congrArg (V c main_v61) (funext fun a => Fin.ext ?_)
    match a with
    | ⟨0, _⟩ => show win2_1.index t (0 : Fin 2) * 1 + 1 * (y 0).val = (y 0).val; omega
    | ⟨1, _⟩ => show win2_1.index t (1 : Fin 2) * 64 + 1 * (y 1).val = (y 1).val; omega
  · show V c main_arg7 (((cfg2.win 2).blk t).view.emb y) = V c main_arg7 y
    refine congrArg (V c main_arg7) (funext fun a => Fin.ext ?_)
    match a with
    | ⟨0, _⟩ => show win2_2.index t (0 : Fin 2) * 64 + 1 * (y 0).val = (y 0).val; omega
    | ⟨1, _⟩ => show win2_2.index t (1 : Fin 2) * 1 + 1 * (y 1).val = (y 1).val; omega
  · show V c main_v62 (((cfg2.win 3).blk t).view.emb y) = V c main_v62 y
    refine congrArg (V c main_v62) (funext fun a => Fin.ext ?_)
    match a with
    | ⟨0, _⟩ => show win2_3.index t (0 : Fin 2) * 1 + 1 * (y 0).val = (y 0).val; omega
    | ⟨1, _⟩ => show win2_3.index t (1 : Fin 2) * 1 + 1 * (y 1).val = (y 1).val; omega
  · refine funext fun a => Fin.ext ?_
    match a with
    | ⟨0, _⟩ => show win2_0.index t (0 : Fin 2) * 5000 + 1 * r.val = win2_4.index t (0 : Fin 2) * 5000 + 1 * r.val; omega
    | ⟨1, _⟩ => show win2_0.index t (1 : Fin 2) * 64 + 1 * k.val = k.val; omega
  · refine Fin.ext ?_
    show win2_4.index t (1 : Fin 2) * 1 + 1 * q.val = q.val; omega

/-- An entry of the output is in point t's block iff each coordinate is in the block's range on its axis. -/
theorem mem_block (t : Fin cfg2.N) (i : S100000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v63).slice (win2_4.rect t)).set ↔ _
  rw [View.set_slice_whole, Rect.mem_set_unit]
  exact Iff.rfl

/-- Row n is in the block of point n / 5000. -/
theorem covered (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  obtain ⟨t, ht⟩ := index_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 1 ≤ (i 1).val ∧ (i 1).val < win2_4.index t (1 : Fin 2) * 1 + 1; omega

/-- The output array after the region. -/
theorem relu_head_array (c : Dev nD) :
    (dat2 V c).arrAt 4 cfg2.N = reluHead (V c main_v60) (V c main_v61) (V c main_arg7) (V c main_v62) :=
  (dat2 V c).arrAt_eq_of_cover 4 (reluHead (V c main_v60) (V c main_v61) (V c main_arg7) (V c main_v62)) (fun t _ => flushed_relu_head V c t) covered

end Cert.KernelIdeal.HeadLayer

end
-- ==== Proof.Layers.lean ====
/-
  The three layers, index by index, against the reference's stages. Both programs compute a node's 64 hidden
  features as the sum over the input channels of feature times weight; for the second and third layers the summand's
  left factor is the propagated feature plus the bias entry of that channel, clamped below at zero. The kernel sees
  each bias through a reshape of its vector to one row, the reference through a broadcast of the vector along the
  rows: both read the vector at the channel. So each layer's array is the reference's matrix product stage, and the
  last one, flattened, is the reference's result.
-/
import proofs.«153778_j47725676593414_1_alg».proof.Proof.LinearLayer
import proofs.«153778_j47725676593414_1_alg».proof.Proof.HiddenLayer
import proofs.«153778_j47725676593414_1_alg».proof.Proof.HeadLayer
import proofs.«153778_j47725676593414_1_alg».proof.Proof.Gen.ReferenceIdeal.Read
import Idealize.ShloMosaic.Lib.ValueIdx
import Idealize.ShloMosaic.Lib.ValueLayout

set_option maxRecDepth 16384

noncomputable section

open scoped BigOperators

namespace Cert.Layers

open Idealize.ShloMosaic Idealize.ShloMosaic.ValueIdx
open Cert.ReferenceIdeal Cert.ReferenceIdeal.Read
open Cert.KernelIdeal.LinearLayer (linear)
open Cert.KernelIdeal.HiddenLayer (reluLinear)
open Cert.KernelIdeal.HeadLayer (reluHead)
open Cert.KernelIdeal.Payloads (zeroWord)

variable (x0 : (⟨S100000x128, .f32⟩ : BufTy).Contents (Elt Ideal)) (x1 : (⟨S2x1000000, .i32⟩ : BufTy).Contents (Elt Ideal))
  (x2 : (⟨S1000000, .f32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal))

/-- The first layer is the reference's first matrix product. -/
theorem linear_eq : linear x0 x3 = val_main_v32 (F := Ideal) x0 x3 := by
  funext i
  rw [val_main_v32_apply]
  unfold linear
  refine Finset.sum_congr rfl fun k _ => ?_
  have el : lidx_main_v32 i k = ix2 (i 0 : Fin 100000) k :=
    funext fun a => Fin.ext (by match a with | ⟨0, _⟩ => rfl | ⟨1, _⟩ => rfl)
  have er : ridx_main_v32 i k = ix2 k (i 1 : Fin 64) :=
    funext fun a => Fin.ext (by match a with | ⟨0, _⟩ => rfl | ⟨1, _⟩ => rfl)
  rw [el, er]
  rfl

/-- The second layer, fed the reference's first propagation and the first bias as one row, is the reference's
    second matrix product. -/
theorem relu_linear_eq :
    reluLinear (val_main_v45 (F := Ideal) x0 x1 x2 x3) (shapeCast Cert.KernelIdeal.S1x64 x4 Cert.KernelIdeal.Gen.shapeCasts_S64_S1x64) x5
      = val_main_v50 (F := Ideal) x0 x1 x2 x3 x4 x5 := by
  funext i
  rw [val_main_v50_apply]
  unfold reluLinear
  refine Finset.sum_congr rfl fun k _ => ?_
  rw [val_main_v49_apply, val_main_v48_apply, val_main_v47_apply, val_main_v46_apply, val_main_call1_v0_apply]
  have el : lidx_main_v50 i k = ix2 (i 0 : Fin 100000) k :=
    funext fun a => Fin.ext (by match a with | ⟨0, _⟩ => rfl | ⟨1, _⟩ => rfl)
  have er : ridx_main_v50 i k = ix2 k (i 1 : Fin 64) :=
    funext fun a => Fin.ext (by match a with | ⟨0, _⟩ => rfl | ⟨1, _⟩ => rfl)
  have eb : idx_main_v46 (idx_main_v47 (lidx_main_v50 i k)) = ix1 k :=
    funext fun a => Fin.ext (by match a with | ⟨0, _⟩ => rfl)
  rw [shapeCast_a_1a_apply x4 Cert.KernelIdeal.Gen.shapeCasts_S64_S1x64 (0 : Fin 1) k, el, er, eb]
  rfl

/-- The third layer, fed the reference's second propagation, the second bias as one row and the output bias as one
    entry, is the reference's last sum. -/
theorem relu_head_eq :
    reluHead (val_main_v63 (F := Ideal) x0 x1 x2 x3 x4 x5) (shapeCast Cert.KernelIdeal.S1x64 x6 Cert.KernelIdeal.Gen.shapeCasts_S64_S1x64) x7
        (shapeCast Cert.KernelIdeal.S1x1 x8 Cert.KernelIdeal.Gen.shapeCasts_S1_S1x1)
      = val_main_v71 (F := Ideal) x0 x1 x2 x3 x4 x5 x6 x7 x8 := by
  funext i
  rw [val_main_v71_apply, val_main_v68_apply, val_main_v70_apply, val_main_v69_apply]
  unfold reluHead
  refine congrArg₂ (· + ·) (Finset.sum_congr rfl fun k _ => ?_) ?_
  · rw [val_main_v67_apply, val_main_v66_apply, val_main_v65_apply, val_main_v64_apply, val_main_call2_v0_apply]
    have el : lidx_main_v68 i k = ix2 (i 0 : Fin 100000) k :=
      funext fun a => Fin.ext (by match a with | ⟨0, _⟩ => rfl | ⟨1, _⟩ => rfl)
    have er : ridx_main_v68 i k = ix2 k (i 1 : Fin 1) :=
      funext fun a => Fin.ext (by match a with | ⟨0, _⟩ => rfl | ⟨1, _⟩ => rfl)
    have eb : idx_main_v64 (idx_main_v65 (lidx_main_v68 i k)) = ix1 k :=
      funext fun a => Fin.ext (by match a with | ⟨0, _⟩ => rfl)
    rw [shapeCast_a_1a_apply x6 Cert.KernelIdeal.Gen.shapeCasts_S64_S1x64 (0 : Fin 1) k, el, er, eb]
    rfl
  · have eo : idx_main_v69 (idx_main_v70 i) = ix1 (i 1 : Fin 1) :=
      funext fun a => Fin.ext (by
        match a with
        | ⟨0, _⟩ => show 0 = (i 1).val; have hlt : (i 1).val < 1 := (i 1).isLt; omega)
    rw [shapeCast_a_1a_apply x8 Cert.KernelIdeal.Gen.shapeCasts_S1_S1x1 (0 : Fin 1) (i 1 : Fin 1), eo]
    rfl

/-- The reference's result is its last sum with the unit axis dropped. -/
theorem result_eq : val_main_v72 (F := Ideal) x0 x1 x2 x3 x4 x5 x6 x7 x8
    = shapeCast S100000 (val_main_v71 (F := Ideal) x0 x1 x2 x3 x4 x5 x6 x7 x8) Cert.ReferenceIdeal.Gen.shapeCasts_S100000x1_S100000 := rfl

end Cert.Layers

end
-- ==== Proof.Boundaries.lean ====
/-
  The idealized kernel program's result as the reference's term of the same arguments. Walking the program's
  boundaries in order: after the edge bookkeeping the buffers hold the reference's sources, destinations and
  per-edge normalisation; the first pallas_call leaves the reference's first matrix product; the stretch after it
  leaves the reference's first propagation and the first bias as one row; the second pallas_call leaves the
  reference's second matrix product; the next stretch its second propagation and the two remaining biases; the third
  pallas_call the reference's last sum; and the final reshape the reference's result. A pallas_call changes only its
  own arrays and a stretch only the buffers it writes, so the sources, the destinations, the normalisation and the
  argument arrays are still there when a later segment reads them.
-/
import proofs.«153778_j47725676593414_1_alg».proof.Proof.Gen.KernelIdeal.Frame
import proofs.«153778_j47725676593414_1_alg».proof.Proof.Stretches
import proofs.«153778_j47725676593414_1_alg».proof.Proof.LinearLayer
import proofs.«153778_j47725676593414_1_alg».proof.Proof.HiddenLayer
import proofs.«153778_j47725676593414_1_alg».proof.Proof.HeadLayer
import proofs.«153778_j47725676593414_1_alg».proof.Proof.Layers

set_option maxRecDepth 16384

noncomputable section

namespace Cert.KernelIdeal.Boundaries

open Cert.KernelIdeal Cert.KernelIdeal.Gen Cert.KernelIdeal.Stretches
open Idealize.ShloMosaic Idealize.ShloMosaic.TcCoe Idealize.SL.Sem Idealize.ShloMosaic.StableHlo
open Cert.ReferenceIdeal.Read
open Cert.KernelIdeal.LinearLayer (linear_array)
open Cert.KernelIdeal.HiddenLayer (relu_linear_array)
open Cert.KernelIdeal.HeadLayer (relu_head_array)

variable (m : (ℓ : Loc nD τ sig) → Buf (Elt Ideal) ℓ) (ρ : Dev nD → PrngReg) (c : Dev nD)

/-! ## What each segment leaves alone -/

theorem kept_bookkeeping {r : Ref sig .tc} (h0 : r ∉ written0) (h1 : r ∉ written0_1) (h2 : r ∉ written0_2) :
    W3 m ρ c (Proc.devRef .tc r) = W0 m ρ c (Proc.devRef .tc r) :=
  (kept0_2 (W2 m ρ c) h2).trans ((kept0_1 (W1 m ρ c) h1).trans (kept0 (W0 m ρ c) h0))
theorem kept_call1 {r : Ref sig .tc} (h : ∀ w, Pipeline.arrRef spec0 w ≠ r) : W4 m ρ c (Proc.devRef .tc r) = W3 m ρ c (Proc.devRef .tc r) :=
  W4_of_ne m ρ c r h
theorem kept_stretch1 {r : Ref sig .tc} (h : r ∉ written1) : W5 m ρ c (Proc.devRef .tc r) = W4 m ρ c (Proc.devRef .tc r) :=
  kept1 (W4 m ρ c) h
theorem kept_call2 {r : Ref sig .tc} (h : ∀ w, Pipeline.arrRef spec1 w ≠ r) : W6 m ρ c (Proc.devRef .tc r) = W5 m ρ c (Proc.devRef .tc r) :=
  W6_of_ne m ρ c r h
theorem kept_stretch2 {r : Ref sig .tc} (h : r ∉ written2) : W7 m ρ c (Proc.devRef .tc r) = W6 m ρ c (Proc.devRef .tc r) :=
  kept2 (W6 m ρ c) h

/-! ## The edge bookkeeping -/

theorem w1_sources : W1 m ρ c (Proc.devRef .tc main_v3) = val_main_v3 (F := Ideal) (m ((c.tc : Thread nD τ).loc main_arg1)) := sources (W0 m ρ c) _ rfl
theorem w1_destinations : W1 m ρ c (Proc.devRef .tc main_v6) = val_main_v6 (F := Ideal) (m ((c.tc : Thread nD τ).loc main_arg1)) := destinations (W0 m ρ c) _ rfl
theorem w1_weights : W1 m ρ c (Proc.devRef .tc main_v8) = val_main_v8 (F := Ideal) (m ((c.tc : Thread nD τ).loc main_arg2)) := weights (W0 m ρ c) _ rfl
theorem w1_positive : W1 m ρ c (Proc.devRef .tc main_v13) = val_main_v13 (F := Ideal) (m ((c.tc : Thread nD τ).loc main_arg1)) (m ((c.tc : Thread nD τ).loc main_arg2)) := degree_positive (W0 m ρ c) _ _ rfl rfl
theorem w1_rsqrt : W1 m ρ c (Proc.devRef .tc main_v14) = val_main_v14 (F := Ideal) (m ((c.tc : Thread nD τ).loc main_arg1)) (m ((c.tc : Thread nD τ).loc main_arg2)) := degree_rsqrt (W0 m ρ c) _ _ rfl rfl
theorem w1_zero : W1 m ρ c (Proc.devRef .tc main_cst_2) = val_main_cst_2 (F := Ideal) := fallback_zero (W0 m ρ c)

theorem w2_factor : W2 m ρ c (Proc.devRef .tc main_v15) = val_main_v15 (F := Ideal) (m ((c.tc : Thread nD τ).loc main_arg1)) (m ((c.tc : Thread nD τ).loc main_arg2)) :=
  degree_factor (W1 m ρ c) _ _ (w1_positive m ρ c) (w1_rsqrt m ρ c) (w1_zero m ρ c)
theorem w2_sources : W2 m ρ c (Proc.devRef .tc main_v3) = val_main_v3 (F := Ideal) (m ((c.tc : Thread nD τ).loc main_arg1)) :=
  (kept0_1 (W1 m ρ c) (by decide)).trans (w1_sources m ρ c)
theorem w2_destinations : W2 m ρ c (Proc.devRef .tc main_v6) = val_main_v6 (F := Ideal) (m ((c.tc : Thread nD τ).loc main_arg1)) :=
  (kept0_1 (W1 m ρ c) (by decide)).trans (w1_destinations m ρ c)
theorem w2_weights : W2 m ρ c (Proc.devRef .tc main_v8) = val_main_v8 (F := Ideal) (m ((c.tc : Thread nD τ).loc main_arg2)) :=
  (kept0_1 (W1 m ρ c) (by decide)).trans (w1_weights m ρ c)

theorem w3_normalisation : W3 m ρ c (Proc.devRef .tc main_v31) = val_main_v31 (F := Ideal) (m ((c.tc : Thread nD τ).loc main_arg1)) (m ((c.tc : Thread nD τ).loc main_arg2)) :=
  normalisation (W2 m ρ c) _ _ (w2_sources m ρ c) (w2_destinations m ρ c) (w2_weights m ρ c) (w2_factor m ρ c)
theorem w3_sources : W3 m ρ c (Proc.devRef .tc main_v3) = val_main_v3 (F := Ideal) (m ((c.tc : Thread nD τ).loc main_arg1)) :=
  (kept0_2 (W2 m ρ c) (by decide)).trans (w2_sources m ρ c)
theorem w3_destinations : W3 m ρ c (Proc.devRef .tc main_v6) = val_main_v6 (F := Ideal) (m ((c.tc : Thread nD τ).loc main_arg1)) :=
  (kept0_2 (W2 m ρ c) (by decide)).trans (w2_destinations m ρ c)

/-- An argument array is as launched when the first pallas_call is entered. -/
theorem w3_arg {r : Ref sig .tc} (h0 : r ∉ written0) (h1 : r ∉ written0_1) (h2 : r ∉ written0_2) :
    W3 m ρ c (Proc.devRef .tc r) = m ((c.tc : Thread nD τ).loc r) :=
  kept_bookkeeping m ρ c h0 h1 h2

/-! ## The first layer and the first propagation -/

theorem w4_linear : W4 m ρ c (Proc.devRef .tc main_v32) = val_main_v32 (F := Ideal) (m ((c.tc : Thread nD τ).loc main_arg0)) (m ((c.tc : Thread nD τ).loc main_arg3)) := by
  refine (W4_arr m ρ c 2).trans ?_
  rw [linear_array (V3 m ρ) c]
  rw [show V3 m ρ c main_arg0 = (m ((c.tc : Thread nD τ).loc main_arg0)) from w3_arg m ρ c (by decide) (by decide) (by decide),
    show V3 m ρ c main_arg3 = (m ((c.tc : Thread nD τ).loc main_arg3)) from w3_arg m ρ c (by decide) (by decide) (by decide)]
  exact Cert.Layers.linear_eq _ _
theorem w4_sources : W4 m ρ c (Proc.devRef .tc main_v3) = val_main_v3 (F := Ideal) (m ((c.tc : Thread nD τ).loc main_arg1)) :=
  (kept_call1 m ρ c (by decide)).trans (w3_sources m ρ c)
theorem w4_destinations : W4 m ρ c (Proc.devRef .tc main_v6) = val_main_v6 (F := Ideal) (m ((c.tc : Thread nD τ).loc main_arg1)) :=
  (kept_call1 m ρ c (by decide)).trans (w3_destinations m ρ c)
theorem w4_normalisation : W4 m ρ c (Proc.devRef .tc main_v31) = val_main_v31 (F := Ideal) (m ((c.tc : Thread nD τ).loc main_arg1)) (m ((c.tc : Thread nD τ).loc main_arg2)) :=
  (kept_call1 m ρ c (by decide)).trans (w3_normalisation m ρ c)
theorem w4_arg {r : Ref sig .tc} (h : ∀ w, Pipeline.arrRef spec0 w ≠ r) (h0 : r ∉ written0) (h1 : r ∉ written0_1) (h2 : r ∉ written0_2) :
    W4 m ρ c (Proc.devRef .tc r) = m ((c.tc : Thread nD τ).loc r) :=
  (kept_call1 m ρ c h).trans (w3_arg m ρ c h0 h1 h2)

theorem w5_propagation : W5 m ρ c (Proc.devRef .tc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) :=
  propagation1 (W4 m ρ c) _ _ _ _ (w4_sources m ρ c) (w4_destinations m ρ c) (w4_normalisation m ρ c) (w4_linear m ρ c)
theorem w5_bias : W5 m ρ c (Proc.devRef .tc main_v46) = shapeCast S1x64 (m ((c.tc : Thread nD τ).loc main_arg4)) shapeCasts_S64_S1x64 :=
  bias_row1 (W4 m ρ c) _ (w4_arg m ρ c (by decide) (by decide) (by decide) (by decide))
theorem w5_sources : W5 m ρ c (Proc.devRef .tc main_v3) = val_main_v3 (F := Ideal) (m ((c.tc : Thread nD τ).loc main_arg1)) :=
  (kept_stretch1 m ρ c (by decide)).trans (w4_sources m ρ c)
theorem w5_destinations : W5 m ρ c (Proc.devRef .tc main_v6) = val_main_v6 (F := Ideal) (m ((c.tc : Thread nD τ).loc main_arg1)) :=
  (kept_stretch1 m ρ c (by decide)).trans (w4_destinations m ρ c)
theorem w5_normalisation : W5 m ρ c (Proc.devRef .tc main_v31) = val_main_v31 (F := Ideal) (m ((c.tc : Thread nD τ).loc main_arg1)) (m ((c.tc : Thread nD τ).loc main_arg2)) :=
  (kept_stretch1 m ρ c (by decide)).trans (w4_normalisation m ρ c)
theorem w5_arg {r : Ref sig .tc} (h5 : r ∉ written1) (h : ∀ w, Pipeline.arrRef spec0 w ≠ r) (h0 : r ∉ written0) (h1 : r ∉ written0_1)
    (h2 : r ∉ written0_2) : W5 m ρ c (Proc.devRef .tc r) = m ((c.tc : Thread nD τ).loc r) :=
  (kept_stretch1 m ρ c h5).trans (w4_arg m ρ c h h0 h1 h2)

/-! ## The second layer and the second propagation -/

theorem w6_hidden : W6 m ρ c (Proc.devRef .tc main_v47) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 3).trans ?_
  rw [relu_linear_array (V5 m ρ) c]
  rw [show V5 m ρ c main_v45 = _ from w5_propagation m ρ c, show V5 m ρ c main_v46 = _ from w5_bias m ρ c,
    show V5 m ρ c main_arg5 = (m ((c.tc : Thread nD τ).loc main_arg5)) from w5_arg m ρ c (by decide) (by decide) (by decide) (by decide) (by decide)]
  exact Cert.Layers.relu_linear_eq _ _ _ _ _ _
theorem w6_sources : W6 m ρ c (Proc.devRef .tc main_v3) = val_main_v3 (F := Ideal) (m ((c.tc : Thread nD τ).loc main_arg1)) :=
  (kept_call2 m ρ c (by decide)).trans (w5_sources m ρ c)
theorem w6_destinations : W6 m ρ c (Proc.devRef .tc main_v6) = val_main_v6 (F := Ideal) (m ((c.tc : Thread nD τ).loc main_arg1)) :=
  (kept_call2 m ρ c (by decide)).trans (w5_destinations m ρ c)
theorem w6_normalisation : W6 m ρ c (Proc.devRef .tc main_v31) = val_main_v31 (F := Ideal) (m ((c.tc : Thread nD τ).loc main_arg1)) (m ((c.tc : Thread nD τ).loc main_arg2)) :=
  (kept_call2 m ρ c (by decide)).trans (w5_normalisation m ρ c)
theorem w6_arg {r : Ref sig .tc} (h6 : ∀ w, Pipeline.arrRef spec1 w ≠ r) (h5 : r ∉ written1) (h : ∀ w, Pipeline.arrRef spec0 w ≠ r)
    (h0 : r ∉ written0) (h1 : r ∉ written0_1) (h2 : r ∉ written0_2) : W6 m ρ c (Proc.devRef .tc r) = m ((c.tc : Thread nD τ).loc r) :=
  (kept_call2 m ρ c h6).trans (w5_arg m ρ c h5 h h0 h1 h2)

theorem w7_propagation : W7 m ρ c (Proc.devRef .tc main_v60) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  propagation2 (W6 m ρ c) _ _ _ _ _ _ (w6_sources m ρ c) (w6_destinations m ρ c) (w6_normalisation m ρ c) (w6_hidden m ρ c)
theorem w7_bias : W7 m ρ c (Proc.devRef .tc main_v61) = shapeCast S1x64 (m ((c.tc : Thread nD τ).loc main_arg6)) shapeCasts_S64_S1x64 :=
  bias_row2 (W6 m ρ c) _ (w6_arg m ρ c (by decide) (by decide) (by decide) (by decide) (by decide) (by decide))
theorem w7_out_bias : W7 m ρ c (Proc.devRef .tc main_v62) = shapeCast S1x1 (m ((c.tc : Thread nD τ).loc main_arg8)) shapeCasts_S1_S1x1 :=
  bias_entry (W6 m ρ c) _ (w6_arg m ρ c (by decide) (by decide) (by decide) (by decide) (by decide) (by decide))
theorem w7_head_weights : W7 m ρ c (Proc.devRef .tc main_arg7) = (m ((c.tc : Thread nD τ).loc main_arg7)) :=
  (kept_stretch2 m ρ c (by decide)).trans (w6_arg m ρ c (by decide) (by decide) (by decide) (by decide) (by decide) (by decide))

/-! ## The head, and the result -/

theorem w8_head : W8 m ρ c (Proc.devRef .tc main_v63) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 4).trans ?_
  rw [relu_head_array (V7 m ρ) c]
  rw [show V7 m ρ c main_v60 = _ from w7_propagation m ρ c, show V7 m ρ c main_v61 = _ from w7_bias m ρ c,
    show V7 m ρ c main_arg7 = (m ((c.tc : Thread nD τ).loc main_arg7)) from w7_head_weights m ρ c, show V7 m ρ c main_v62 = _ from w7_out_bias m ρ c]
  exact Cert.Layers.relu_head_eq _ _ _ _ _ _ _ _ _

/-- The result buffer at the last boundary is the reference's result term of the kernel program's arguments. -/
theorem result_value : W9 m ρ c (Proc.devRef .tc main_v64)
    = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (flattened (W8 m ρ c)).trans ?_
  rw [w8_head m ρ c, Cert.Layers.result_eq]

end Cert.KernelIdeal.Boundaries

end
-- ==== Proof.lean ====
/-
  A two-layer graph convolution with a linear head, over 100000 nodes and 1000000 weighted edges: the kernel program
  runs its three matrix products (features × W1; relu(· + b1) × W2; relu(· + b2) × Wl + bl) as three pallas_calls
  tiled over blocks of 5000 rows, with narrowed operands, and leaves the edge bookkeeping and the two propagations
  (gather the source rows, scale by the symmetric normalisation, scatter-add into the destination rows) to host
  operations; the reference runs everything as host operations.
  At the ideal values a narrowing of the float format is the identity and a product of a block of rows is the same
  rows of the whole product, so each pallas_call leaves exactly the reference's matrix product, and the host
  operations around the calls are the reference's own, in the same order. The two results are therefore one term of
  the arguments; no rearrangement of sums or products is needed, and the finiteness of the inputs is not used.
  The rewriting pass changed no operation of the kernel, so the kernel's idealization is its own text.
-/
import proofs.«153778_j47725676593414_1_alg».proof.Defs
import proofs.«153778_j47725676593414_1_alg».proof.Proof.Gen.Kernel
import proofs.«153778_j47725676593414_1_alg».proof.Proof.Gen.Kernel.Skeleton
import proofs.«153778_j47725676593414_1_alg».proof.Proof.Gen.Kernel.Launch
import proofs.«153778_j47725676593414_1_alg».proof.Proof.Gen.Kernel.Points
import proofs.«153778_j47725676593414_1_alg».proof.Proof.Gen.Kernel.Frame
import proofs.«153778_j47725676593414_1_alg».proof.Proof.Gen.KernelIdeal
import proofs.«153778_j47725676593414_1_alg».proof.Proof.Gen.KernelIdeal.Skeleton
import proofs.«153778_j47725676593414_1_alg».proof.Proof.Gen.KernelIdeal.Launch
import proofs.«153778_j47725676593414_1_alg».proof.Proof.Gen.KernelIdeal.Points
import proofs.«153778_j47725676593414_1_alg».proof.Proof.Gen.KernelIdeal.Frame
import proofs.«153778_j47725676593414_1_alg».proof.Proof.Gen.ReferenceIdeal
import proofs.«153778_j47725676593414_1_alg».proof.Proof.Gen.ReferenceIdeal.Run
import proofs.«153778_j47725676593414_1_alg».proof.Proof.Gen.ReferenceIdeal.Read
import proofs.«153778_j47725676593414_1_alg».proof.Proof.Gen.Pre_finite_inputs
import proofs.«153778_j47725676593414_1_alg».proof.Proof.RunValue
import proofs.«153778_j47725676593414_1_alg».proof.Proof.Boundaries
import Idealize.ShloMosaic.Adequacy
import Idealize.ShloMosaic.Init

noncomputable section

namespace Cert.Proof

open Idealize.ShloMosaic Idealize.ShloMosaic.TcCoe Idealize.SL.Sem

/-- The kernel program as printed runs to the end, nothing faulting, its arguments unchanged. -/
theorem frame_kernel : Cert.frame_Kernel := fun m ρ _ => Cert.Kernel.Gen.frame m ρ

/-- So does the kernel program at the ideal values. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories agreeing on the arguments both programs end with the reference's result term of the arguments:
    the kernel program by walking its boundaries, the reference by its run. -/
theorem algebraic : Cert.algebraic_KernelIdeal_ReferenceIdeal := by
  intro m ρ m' ρ' _ hagree
  refine ⟨fun c => Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Boundaries.result_value m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v72_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
